-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S384x128 : Shape := ⟨2, ![384, 128]⟩
abbrev S384 : Shape := ⟨1, ![384]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384x128 .f32) (main_arg5 : FVec F S384 .f32) (main_arg6 : FVec F S384 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x128 .f32 := Host.absf main_arg4
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S384x128 .f32) (main_arg4 : FVec F S384x128 .f32) (main_arg5 : FVec F S384 .f32) (main_arg6 : FVec F S384 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S384x128 : Shape := ⟨2, ![384, 128]⟩
abbrev S384 : Shape := ⟨1, ![384]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩
abbrev S128x384 : Shape := ⟨2, ![128, 384]⟩
abbrev S1x128 : Shape := ⟨2, ![1, 128]⟩
abbrev S4000x384 : Shape := ⟨2, ![4000, 384]⟩
abbrev S1x384 : Shape := ⟨2, ![1, 384]⟩

abbrev nBuf : Space → Nat
  | .hbm => 34
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S384x128, .f32⟩
  | .hbm, ⟨4, _⟩ => ⟨S384x128, .f32⟩
  | .hbm, ⟨5, _⟩ => ⟨S384, .f32⟩
  | .hbm, ⟨6, _⟩ => ⟨S384, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S100000x1, .f32⟩
  | .hbm, ⟨16, _⟩ => ⟨S100000x128, .f32⟩
  | .hbm, ⟨17, _⟩ => ⟨S100000x1, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S128x384, .f32⟩
  | .hbm, ⟨32, _⟩ => ⟨S128x384, .f32⟩
  | .hbm, ⟨33, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S4000x1, .f32⟩
  | .local _ .vmem, ⟨7, _⟩ => ⟨S4000x1, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x1, .f32⟩
  | .local _ .vmem, ⟨13, _⟩ => ⟨S4000x1, .f32⟩
  | .local _ .vmem, ⟨14, _⟩ => ⟨S128x128, .f32⟩
  | .local _ .vmem, ⟨15, _⟩ => ⟨S128, .f32⟩
  | .local _ .vmem, ⟨16, _⟩ => ⟨S128x384, .f32⟩
  | .local _ .vmem, ⟨17, _⟩ => ⟨S128x384, .f32⟩
  | .local _ .vmem, ⟨18, _⟩ => ⟨S384, .f32⟩
  | .local _ .vmem, ⟨19, _⟩ => ⟨S384, .f32⟩
  | .local _ .vmem, ⟨20, _⟩ => ⟨S4000x128, .f32⟩
  | .local _ .vmem, ⟨21, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S384 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  broadcasts_S4000x1_S4000x128 : S4000x1.Broadcasts S4000x128
  bcast_S_S100000x128 : S_.BroadcastsInDim S100000x128 (![] : Fin 0 → Fin S100000x128.rank)
  transposes_S384x128_S128x384_1_0 : S384x128.Transposes [1, 0] S128x384
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S128_S1x128 : S128.ShapeCasts S1x128
  broadcasts_S1x128_S4000x128 : S1x128.Broadcasts S4000x128
  shapeCasts_S384_S1x384 : S384.ShapeCasts S1x384
  broadcasts_S1x384_S4000x384 : S1x384.Broadcasts S4000x384
  slices_S4000x384_o0_0_S4000x128 : S4000x384.Slices ![0, 0] S4000x128
  slices_S4000x384_o0_128_S4000x128 : S4000x384.Slices ![0, 128] S4000x128
  slices_S4000x384_o0_256_S4000x128 : S4000x384.Slices ![0, 256] S4000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x384_S4000x384_1_0_0_1_n_n_wf : DotDims.WF S4000x128 S128x384 S4000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x384.size a ≤ S128x384.size a
  hwx1_5 : ∀ i : grid1.Coords, EltTy.bits .f32 = 32 ∨ (Rect.block (s := S128x384) S128x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x384.size a ≤ S128x384.size a
  hwx1_6 : ∀ i : grid1.Coords, EltTy.bits .f32 = 32 ∨ (Rect.block (s := S128x384) S128x384.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S384.size a ≤ S384.size a
  hwx1_7 : ∀ i : grid1.Coords, EltTy.bits .f32 = 32 ∨ (Rect.block (s := S384) S384.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S384.size a ≤ S384.size a
  hwx1_8 : ∀ i : grid1.Coords, EltTy.bits .f32 = 32 ∨ (Rect.block (s := S384) S384.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S100000x128.size a
  hwx1_9 : ∀ i : grid1.Coords, EltTy.bits .f32 = 32 ∨ (Rect.block (s := S100000x128) S4000x128.size (cc1_transform_9 i) (hinb1_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x384_S4000x384_1_0_0_1_n_n : DotDims S4000x128 S128x384 S4000x384 where
  lhsContracting := [1]
  rhsContracting := [0]
  lhsNonContracting := [0]
  rhsNonContracting := [1]
  lhsBatch := []
  rhsBatch := []
  wf := dot_S4000x128_S128x384_S4000x384_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S4000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S4000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_1) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S128x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S128x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg5) S384.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg6) S384.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v18) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S384x128 : Shape := ⟨2, ![384, 128]⟩
abbrev S384 : Shape := ⟨1, ![384]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S128x384 : Shape := ⟨2, ![128, 384]⟩
abbrev S100000x384 : Shape := ⟨2, ![100000, 384]⟩
abbrev S1x384 : Shape := ⟨2, ![1, 384]⟩

abbrev nBuf : Space → Nat
  | .hbm => 87
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S384x128, .f32⟩
  | .hbm, ⟨4, _⟩ => ⟨S384x128, .f32⟩
  | .hbm, ⟨5, _⟩ => ⟨S384, .f32⟩
  | .hbm, ⟨6, _⟩ => ⟨S384, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x128, .f32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S128x384, .f32⟩
  | .hbm, ⟨45, _⟩ => ⟨S100000x384, .f32⟩
  | .hbm, ⟨46, _⟩ => ⟨S1x384, .f32⟩
  | .hbm, ⟨47, _⟩ => ⟨S100000x384, .f32⟩
  | .hbm, ⟨48, _⟩ => ⟨S100000x384, .f32⟩
  | .hbm, ⟨49, _⟩ => ⟨S128x384, .f32⟩
  | .hbm, ⟨50, _⟩ => ⟨S100000x384, .f32⟩
  | .hbm, ⟨51, _⟩ => ⟨S1x384, .f32⟩
  | .hbm, ⟨52, _⟩ => ⟨S100000x384, .f32⟩
  | .hbm, ⟨53, _⟩ => ⟨S100000x384, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x384_S100000x384_1_0_0_1_n_n_wf : DotDims.WF S100000x128 S128x384 S100000x384 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf

class Facts : Prop extends Facts₀ where

variable [Facts]
-- ==== Proof.KRun.lean ====
/-
  The idealized kernel's run with its result named. The program is two pipelined regions among two stretches of host
  operations; its buffers' contents at each boundary are a fold from the launch memory (host operations applied in order,
  each region's arrays replaced by what its write-backs leave). Every weakly fair execution from a memory with zero
  counters terminates without a fault, the argument arrays end as launched, and the result buffer ends at the last
  boundary's contents: the array that the second region's output window's write-backs leave.
-/
import proofs.«153496_j30734785970522_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result buffer at the last boundary's contents, the arguments as launched. The
    launch over the four segments; the last thread state read against the final state; the result buffer is among the
    unscoped buffers that state holds. -/
theorem run_result : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v18 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

/-- The last boundary's contents at the result buffer are what the second region's output window leaves. -/
theorem result_arr (c : Dev nD) :
    W4 m ρ c (Proc.devRef .tc main_v18) = (dat1 (V3 m ρ) c).arrAt 9 cfg1.N := W4_arr m ρ c 9

end Cert.KernelIdeal.RunV

end
-- ==== Proof.HostV.lean ====
/-
  The host operations around the idealized kernel's two regions, read as whole-array functions of the arguments.
  Before the first region the in-degree is counted: a scatter-add of ones into zeros at the destination indices, laid out
  as a column. Between the regions the normalised features are gathered at the (wrapped) source indices and scatter-added
  at the destination indices into zeros, and the two recurrent weight matrices are transposed. Each boundary's contents
  at a buffer is the stretch's operations applied to the contents before it; a buffer no operation writes keeps its
  contents.
-/
import proofs.«153496_j30734785970522_1_alg».proof.Proof.Gen.KernelIdeal.Frame
import Idealize.ShloMosaic.Lib.StableHlo.Run
import Idealize.ShloMosaic.PureOps.Ideal

set_option maxRecDepth 16384

noncomputable section

namespace Cert.KernelIdeal.HostV

open Cert.KernelIdeal Cert.KernelIdeal.Gen
open Idealize.ShloMosaic Idealize.ShloMosaic.TcCoe Idealize.SL.Sem Idealize.ShloMosaic.StableHlo

/-- The in-degree: ones scatter-added into zeros at the destination indices. -/
def degOf (dst : (⟨S1600000, .i32⟩ : BufTy).Contents (Elt Ideal)) : (⟨S100000, .f32⟩ : BufTy).Contents (Elt Ideal) :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The source indices as the gather takes them: a negative index wrapped by the number of nodes, as a column. -/
def srcIdxOf (src : (⟨S1600000, .i32⟩ : BufTy).Contents (Elt Ideal)) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The aggregation: the rows of `featn` gathered at the source indices, scatter-added into zeros at the destinations. -/
def aggOf (featn : (⟨S100000x128, .f32⟩ : BufTy).Contents (Elt Ideal)) (src dst : (⟨S1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 featn (srcIdxOf src))

variable (m : (ℓ : Loc nD τ sig) → Buf (Elt Ideal) ℓ) (ρ : Dev nD → PrngReg)

/-- Entering the first region, the degree column is the in-degree of the destination indices laid out as a column. -/
theorem V1_v4 (c : Dev nD) :
    V1 m ρ c main_v4 = broadcastInDim S100000x1 ![0] bcast_S100000_S100000x1_0 (degOf (m ((c : Thread nD τ).loc main_arg8))) := by
  show StableHlo.after hostOps0 (W0 m ρ c) (Proc.devRef .tc main_v4) = _
  after_results
  rfl

/-- No host operation before the first region writes an argument: walking back the first stretch. -/
theorem W1_of_not_written (c : Dev nD) (b : Ref sig .tc)
    (hb : ∀ op ∈ (hostOps0 : List (HloOp τ sig (Elt Ideal))), Proc.devRef .tc b ∉ op.writes) :
    W1 m ρ c (Proc.devRef .tc b) = m ((c : Thread nD τ).loc b) :=
  StableHlo.after_of_forall_not_mem (b := Proc.devRef .tc b) _ _ hb

/-- A buffer that no operation of a stretch writes: the side condition, decided operation by operation. -/
local macro "not_written" : tactic => `(tactic| (
  refine List.forall_iff_forall_mem.mp ?_
  simp only [hostOps0, hostOps1, List.Forall, StableHlo.nullary_writes, StableHlo.unary_writes, StableHlo.binary_writes,
    StableHlo.ternary_writes, Finset.mem_singleton]
  repeat' apply And.intro
  all_goals exact StableHlo.devRef_ne_of_ne (by decide)))

/-- An argument that is no array of the first region keeps its launch contents up to the first region's exit. -/
theorem W2_of_arg (c : Dev nD) (b : Ref sig .tc) (hne : ∀ w, Pipeline.arrRef spec0 w ≠ b)
    (hb : ∀ op ∈ (hostOps0 : List (HloOp τ sig (Elt Ideal))), Proc.devRef .tc b ∉ op.writes) :
    W2 m ρ c (Proc.devRef .tc b) = m ((c : Thread nD τ).loc b) :=
  (W2_of_ne m ρ c b hne).trans (W1_of_not_written m ρ c b hb)

theorem W2_arg1 (c : Dev nD) : W2 m ρ c (Proc.devRef .tc main_arg1) = m ((c : Thread nD τ).loc main_arg1) :=
  W2_of_arg m ρ c main_arg1 (by decide) (by not_written)
theorem W2_arg2 (c : Dev nD) : W2 m ρ c (Proc.devRef .tc main_arg2) = m ((c : Thread nD τ).loc main_arg2) :=
  W2_of_arg m ρ c main_arg2 (by decide) (by not_written)
theorem W2_arg3 (c : Dev nD) : W2 m ρ c (Proc.devRef .tc main_arg3) = m ((c : Thread nD τ).loc main_arg3) :=
  W2_of_arg m ρ c main_arg3 (by decide) (by not_written)
theorem W2_arg4 (c : Dev nD) : W2 m ρ c (Proc.devRef .tc main_arg4) = m ((c : Thread nD τ).loc main_arg4) :=
  W2_of_arg m ρ c main_arg4 (by decide) (by not_written)
theorem W2_arg5 (c : Dev nD) : W2 m ρ c (Proc.devRef .tc main_arg5) = m ((c : Thread nD τ).loc main_arg5) :=
  W2_of_arg m ρ c main_arg5 (by decide) (by not_written)
theorem W2_arg6 (c : Dev nD) : W2 m ρ c (Proc.devRef .tc main_arg6) = m ((c : Thread nD τ).loc main_arg6) :=
  W2_of_arg m ρ c main_arg6 (by decide) (by not_written)
theorem W2_arg7 (c : Dev nD) : W2 m ρ c (Proc.devRef .tc main_arg7) = m ((c : Thread nD τ).loc main_arg7) :=
  W2_of_arg m ρ c main_arg7 (by decide) (by not_written)
theorem W2_arg8 (c : Dev nD) : W2 m ρ c (Proc.devRef .tc main_arg8) = m ((c : Thread nD τ).loc main_arg8) :=
  W2_of_arg m ρ c main_arg8 (by decide) (by not_written)

/-- Entering the first region, the feature array is the argument. -/
theorem V1_arg0 (c : Dev nD) : V1 m ρ c main_arg0 = m ((c : Thread nD τ).loc main_arg0) :=
  W1_of_not_written m ρ c main_arg0 (by not_written)

/-- Entering the second region, the aggregated array is the aggregation of the first region's normalised features. -/
theorem V3_v15 (c : Dev nD) :
    V3 m ρ c main_v15 = aggOf ((dat0 (V1 m ρ) c).arrAt 2 cfg0.N) (m ((c : Thread nD τ).loc main_arg7)) (m ((c : Thread nD τ).loc main_arg8)) := by
  rw [← W2_arg7 m ρ c, ← W2_arg8 m ρ c, ← W2_arr m ρ c 2]
  show StableHlo.after hostOps1 (W2 m ρ c) (Proc.devRef .tc main_v15) = _
  after_results
  rfl

/-- Entering the second region, the two recurrent weight matrices are the arguments transposed. -/
theorem V3_v16 (c : Dev nD) :
    V3 m ρ c main_v16 = transpose S128x384 [1, 0] (m ((c : Thread nD τ).loc main_arg3)) transposes_S384x128_S128x384_1_0 := by
  rw [← W2_arg3 m ρ c]
  show StableHlo.after hostOps1 (W2 m ρ c) (Proc.devRef .tc main_v16) = _
  after_results
theorem V3_v17 (c : Dev nD) :
    V3 m ρ c main_v17 = transpose S128x384 [1, 0] (m ((c : Thread nD τ).loc main_arg4)) transposes_S384x128_S128x384_1_0 := by
  rw [← W2_arg4 m ρ c]
  show StableHlo.after hostOps1 (W2 m ρ c) (Proc.devRef .tc main_v17) = _
  after_results

/-- The second stretch writes neither of the first region's outputs nor an argument. -/
theorem V3_of_not_written (c : Dev nD) (b : Ref sig .tc)
    (hb : ∀ op ∈ (hostOps1 : List (HloOp τ sig (Elt Ideal))), Proc.devRef .tc b ∉ op.writes) :
    V3 m ρ c b = W2 m ρ c (Proc.devRef .tc b) :=
  StableHlo.after_of_forall_not_mem (b := Proc.devRef .tc b) _ _ hb

theorem V3_v5_0 (c : Dev nD) : V3 m ρ c main_v5_0 = (dat0 (V1 m ρ) c).arrAt 2 cfg0.N :=
  (V3_of_not_written m ρ c main_v5_0 (by not_written)).trans (W2_arr m ρ c 2)
theorem V3_v5_1 (c : Dev nD) : V3 m ρ c main_v5_1 = (dat0 (V1 m ρ) c).arrAt 3 cfg0.N :=
  (V3_of_not_written m ρ c main_v5_1 (by not_written)).trans (W2_arr m ρ c 3)
theorem V3_arg1 (c : Dev nD) : V3 m ρ c main_arg1 = m ((c : Thread nD τ).loc main_arg1) :=
  (V3_of_not_written m ρ c main_arg1 (by not_written)).trans (W2_arg1 m ρ c)
theorem V3_arg2 (c : Dev nD) : V3 m ρ c main_arg2 = m ((c : Thread nD τ).loc main_arg2) :=
  (V3_of_not_written m ρ c main_arg2 (by not_written)).trans (W2_arg2 m ρ c)
theorem V3_arg5 (c : Dev nD) : V3 m ρ c main_arg5 = m ((c : Thread nD τ).loc main_arg5) :=
  (V3_of_not_written m ρ c main_arg5 (by not_written)).trans (W2_arg5 m ρ c)
theorem V3_arg6 (c : Dev nD) : V3 m ρ c main_arg6 = m ((c : Thread nD τ).loc main_arg6) :=
  (V3_of_not_written m ρ c main_arg6 (by not_written)).trans (W2_arg6 m ρ c)

end Cert.KernelIdeal.HostV

end
-- ==== Proof.Stages.lean ====
/-
  The reference's host stages that are never read entry by entry — the in-degree, the wrapped source indices, the
  aggregation, the transposed recurrent weights — are the very functions the kernel's host operations compute: the two
  programs spell the same scatter-add, gather and transpose of the same operands, so each equation holds by unfolding.
  Also here: the in-degree laid out as a column, read at a row.
-/
import proofs.«153496_j30734785970522_1_alg».proof.Proof.Gen.ReferenceIdeal.Read
import proofs.«153496_j30734785970522_1_alg».proof.Proof.HostV
import Idealize.ShloMosaic.Lib.ValueIdx
import Idealize.ShloMosaic.Lib.Pipeline.Value

set_option maxRecDepth 16384

noncomputable section

namespace Cert.Join

open Idealize.ShloMosaic Idealize.ShloMosaic.ValueIdx
open Cert.ReferenceIdeal.Read Cert.KernelIdeal.HostV

/-- The reference's in-degree is the kernel's. -/
theorem ref_deg (x8 : (⟨Cert.KernelIdeal.S1600000, .i32⟩ : BufTy).Contents (Elt Ideal)) :
    val_main_v3 (F := Ideal) x8 = degOf x8 := rfl

/-- The reference's aggregation is the kernel's aggregation of the reference's normalised features. -/
theorem ref_agg (x0 : (⟨Cert.KernelIdeal.S100000x128, .f32⟩ : BufTy).Contents (Elt Ideal))
    (x7 x8 : (⟨Cert.KernelIdeal.S1600000, .i32⟩ : BufTy).Contents (Elt Ideal)) :
    val_main_v19 (F := Ideal) x0 x7 x8 = aggOf (val_main_v9 (F := Ideal) x0 x8) x7 x8 := rfl

/-- The reference's transposed recurrent weights are the kernel's. -/
theorem ref_wihT (x3 : (⟨Cert.KernelIdeal.S384x128, .f32⟩ : BufTy).Contents (Elt Ideal)) :
    val_main_v26 (F := Ideal) x3
      = transpose Cert.KernelIdeal.S128x384 [1, 0] x3 Cert.KernelIdeal.Facts₀.transposes_S384x128_S128x384_1_0 := rfl
theorem ref_whhT (x4 : (⟨Cert.KernelIdeal.S384x128, .f32⟩ : BufTy).Contents (Elt Ideal)) :
    val_main_v31 (F := Ideal) x4
      = transpose Cert.KernelIdeal.S128x384 [1, 0] x4 Cert.KernelIdeal.Facts₀.transposes_S384x128_S128x384_1_0 := rfl

/-- A vector laid out as a column reads, at row r, the vector's entry r. -/
theorem col_apply (d : (⟨Cert.KernelIdeal.S100000, .f32⟩ : BufTy).Contents (Elt Ideal)) (r : Fin 100000) :
    broadcastInDim Cert.KernelIdeal.S100000x1 ![0] Cert.KernelIdeal.Facts₀.bcast_S100000_S100000x1_0 d (ix2 r (0 : Fin 1)) = d (ix1 r) :=
  broadcastInDim_apply _ Cert.KernelIdeal.Facts₀.bcast_S100000_S100000x1_0 d (ix2 r (0 : Fin 1)) (ix1 r) (fun a => match a with
    | ⟨0, _⟩ => by show r.val = if (100000 : Nat) = 1 then 0 else r.val; rw [if_neg (by decide)])

end Cert.Join

end
-- ==== Proof.LibRsqrtPow.lean ====
/-
  The reciprocal square root as a power.

  For an extended real at or above one, the reciprocal of its square root is the number raised to the power −1/2: on the
  reals both are (√x)⁻¹, and at +∞ both are 0. (The two functions differ at zero — +∞ against 0 — and below zero, which a
  value clipped from below at one never reaches; so no finiteness hypothesis is needed.) This is the law by which a
  program computing rsqrt (max 1 d) meets one computing (max 1 d) ^ (−0.5), the bound written as the float word of 1.0
  and the exponent as the float word of −0.5, whichever way round the maximum is written. Nothing here depends on a
  program.
-/
import Idealize.ShloMosaic.PureOps.Ideal
import Idealize.ShloMosaic.PureOps.Ideal.Laws
import Idealize.ShloMosaic.Lib.IdealHost

noncomputable section

namespace Cert.LibRsqrtPow

open Idealize.ShloMosaic

/-- The single-precision float word of −0.5 is the real number −1/2. -/
theorem ofBits_neg_half_f32 : Ideal.ofBits .f32 0xBF000000#32 = ((-(1 / 2) : ℝ) : EReal) := by
  simp [Ideal.ofBits, Ideal.ieee, -EReal.coe_mul]; norm_num

/-- At or above one, the reciprocal square root is the power −1/2. -/
theorem rsqrt_eq_pow_of_one_le (x : EReal) (hx : 1 ≤ x) :
    Ideal.rsqrt x = Ideal.pow x (Ideal.ofBits .f32 0xBF000000#32) := by
  rw [ofBits_neg_half_f32]
  induction x using EReal.rec with
  | bot => exact absurd (le_bot_iff.mp hx) (by rw [← EReal.coe_one]; exact EReal.coe_ne_bot 1)
  | top =>
    have h1 : ¬ (0 : EReal) < ((-(1 / 2) : ℝ) : EReal) := by
      rw [not_lt]; exact_mod_cast (by norm_num : (-(1 / 2) : ℝ) ≤ 0)
    have h2 : ((-(1 / 2) : ℝ) : EReal) ≠ 0 := by
      intro h; have : (-(1 / 2) : ℝ) = 0 := by exact_mod_cast h
      norm_num at this
    rw [Ideal.rsqrt_top, Ideal.pow_top, if_neg h1, if_neg h2]
  | coe r =>
    have hr : (1 : ℝ) ≤ r := by exact_mod_cast hx
    have h0 : 0 < r := by linarith
    rw [Ideal.rsqrt_coe, Ideal.pow_coe_coe, if_neg (by linarith), if_neg (ne_of_gt h0)]
    refine congrArg (fun t : ℝ => (t : EReal)) ?_
    show (Real.sqrt r)⁻¹ = r ^ (-(1 / 2) : ℝ)
    rw [Real.rpow_neg h0.le, Real.sqrt_eq_rpow]

/-- A value clipped from below at the float word of 1.0: its reciprocal square root is its power −1/2. -/
theorem rsqrt_clip_eq_pow (d : EReal) :
    Ideal.rsqrt (max (Ideal.ofBits .f32 0x3F800000#32) d)
      = Ideal.pow (max (Ideal.ofBits .f32 0x3F800000#32) d) (Ideal.ofBits .f32 0xBF000000#32) :=
  rsqrt_eq_pow_of_one_le _ (by rw [Ideal.ofBits_one_f32]; exact le_max_left _ _)

/-- The same with the maximum written the other way round. -/
theorem rsqrt_clip_eq_pow' (d : EReal) :
    Ideal.rsqrt (max d (Ideal.ofBits .f32 0x3F800000#32))
      = Ideal.pow (max d (Ideal.ofBits .f32 0x3F800000#32)) (Ideal.ofBits .f32 0xBF000000#32) :=
  rsqrt_eq_pow_of_one_le _ (by rw [Ideal.ofBits_one_f32]; exact le_max_right _ _)

end Cert.LibRsqrtPow

end
-- ==== Proof.GruSpec.lean ====
/-
  One node's update in a graph convolution followed by a gated recurrent cell, entry by entry on the extended reals.

  A node carries an aggregated feature row `a`, its own normalised feature row `f` (both of width 128) and a scalar
  `n` (its degree normalisation). The hidden row is the dense transform of `a`, scaled by `n`, plus a bias:
  `hid c = (∑ k, a k · W k c) · n + b c`. The cell's two pre-activations, of width 3 · 128, are affine maps of `f` and of
  the hidden row: `pre x M β j = (∑ k, x k · M k j) + β j`. Their three column groups are the reset gate, the update gate and
  the candidate: with `σ v = 1 / (1 + exp (−v))`,
    r = σ (gi₀ + gh₀),  z = σ (gi₁ + gh₁),  cand = tanh (gi₂ + r · gh₂),  out = (1 − z) · cand + z · hid.
  Every operation is the exact one on the extended reals (the quotient and the exponential with their conventions at the
  infinities); the constant 1 is kept as the float word of 1.0, which both programs spell. Nothing here depends on a program.
-/
import Idealize.ShloMosaic.PureOps.Ideal
import Mathlib.Algebra.BigOperators.Fin

noncomputable section

namespace Cert.GruSpec

open Idealize.ShloMosaic

/-- The float word of 1.0, read as an extended real. -/
def one : EReal := Ideal.ofBits .f32 0x3F800000#32

/-- Entry `c` of the hidden row: the dense transform of the aggregated row, scaled, plus the bias. -/
def hid (a : Fin 128 → EReal) (n : EReal) (W : Fin 128 → Fin 128 → EReal) (b : Fin 128 → EReal) (c : Fin 128) : EReal :=
  (∑ k : Fin 128, a k * W k c) * n + b c

/-- Entry `j` of a pre-activation: an affine map of a row of width 128 into width 384. -/
def pre (x : Fin 128 → EReal) (M : Fin 128 → Fin 384 → EReal) (β : Fin 384 → EReal) (j : Fin 384) : EReal :=
  (∑ k : Fin 128, x k * M k j) + β j

/-- The logistic function spelt as a quotient: 1 / (1 + exp (−v)). -/
def sg (v : EReal) : EReal := Ideal.div one (one + Ideal.exp (-v))

/-- Column `q` of the first, second and third group of 128 columns among 384. -/
def col0 (q : Fin 128) : Fin 384 := ⟨q.val, by omega⟩
def col1 (q : Fin 128) : Fin 384 := ⟨q.val + 128, by omega⟩
def col2 (q : Fin 128) : Fin 384 := ⟨q.val + 256, by omega⟩

/-- The gated cell at column `q`, from the two pre-activations and the hidden row. -/
def cell (gi gh : Fin 384 → EReal) (h : Fin 128 → EReal) (q : Fin 128) : EReal :=
  (one - sg (gi (col1 q) + gh (col1 q))) * Ideal.tanh (gi (col2 q) + sg (gi (col0 q) + gh (col0 q)) * gh (col2 q))
    + sg (gi (col1 q) + gh (col1 q)) * h q

/-- One node's output at column `q`. -/
def out (a f : Fin 128 → EReal) (n : EReal) (W : Fin 128 → Fin 128 → EReal) (b : Fin 128 → EReal)
    (Mi Mh : Fin 128 → Fin 384 → EReal) (βi βh : Fin 384 → EReal) (q : Fin 128) : EReal :=
  cell (pre f Mi βi) (pre (hid a n W b) Mh βh) (hid a n W b) q

end Cert.GruSpec

end
-- ==== Proof.RefRow.lean ====
/-
  The reference program's result read at one entry.

  The reference computes, with whole-array operations, a graph convolution followed by a gated recurrent cell. Read at row
  `r` and column `q`, every stage after the two scatter-adds and the gather depends only on row `r` of the aggregated
  array, row `r` of the normalised features and the normalisation scalar of row `r`: the dense products are sums over the
  128 features of that row, the broadcasts and transposes only move indices, and the slices pick the three groups of 128
  columns among 384. The result is therefore the node update of `Cert.GruSpec.out` applied to row `r`.
-/
import proofs.«153496_j30734785970522_1_alg».proof.Proof.Gen.ReferenceIdeal.Read
import proofs.«153496_j30734785970522_1_alg».proof.Proof.GruSpec

noncomputable section

namespace Cert.ReferenceIdeal.RefRow

open Cert.ReferenceIdeal Cert.ReferenceIdeal.Gen Cert.ReferenceIdeal.Read Idealize.ShloMosaic Idealize.ShloMosaic.ValueIdx

/-! ## Where each layout stage reads its operand, by coordinates -/

/-- The column of normalisations at row `r` reads the vector at `r`. -/
theorem idx7 (r : Fin 100000) : idx_main_v7 (ix2 r (0 : Fin 1)) = ix1 r :=
  funext fun a => by match a with | ⟨0, _⟩ => rfl

/-- The column spread over 128 columns reads the column at row `r`. -/
theorem idx8 (r : Fin 100000) (k : Fin 128) : idx_main_v8 (ix2 r k) = ix2 r (0 : Fin 1) :=
  funext fun a => by match a with | ⟨0, _⟩ => rfl | ⟨1, _⟩ => rfl

theorem idx21 (r : Fin 100000) (k : Fin 128) : idx_main_v21 (ix2 r k) = ix2 r (0 : Fin 1) :=
  funext fun a => by match a with | ⟨0, _⟩ => rfl | ⟨1, _⟩ => rfl

/-- The first dense product at `(r, c)` reads row `r` of the aggregated array and column `c` of the weight. -/
theorem lidx20 (r : Fin 100000) (c k : Fin 128) : lidx_main_v20 (ix2 r c) k = ix2 r k :=
  funext fun a => by match a with | ⟨0, _⟩ => rfl | ⟨1, _⟩ => rfl
theorem ridx20 (r : Fin 100000) (c k : Fin 128) : ridx_main_v20 (ix2 r c) k = ix2 k c :=
  funext fun a => by match a with | ⟨0, _⟩ => rfl | ⟨1, _⟩ => rfl

/-- The bias spread over the rows reads the bias at the column. -/
theorem idx24 (r : Fin 100000) (c : Fin 128) : idx_main_v24 (ix2 r c) = ix2 (0 : Fin 1) c :=
  funext fun a => by match a with | ⟨0, _⟩ => rfl | ⟨1, _⟩ => rfl
theorem idx23 (c : Fin 128) : idx_main_v23 (ix2 (0 : Fin 1) c) = ix1 c :=
  funext fun a => by match a with | ⟨0, _⟩ => rfl

/-- The two products into 384 columns at `(r, j)` read row `r` of the left operand and column `j` of the right one. -/
theorem lidx27 (r : Fin 100000) (j : Fin 384) (k : Fin 128) : lidx_main_v27 (ix2 r j) k = ix2 r k :=
  funext fun a => by match a with | ⟨0, _⟩ => rfl | ⟨1, _⟩ => rfl
theorem ridx27 (r : Fin 100000) (j : Fin 384) (k : Fin 128) : ridx_main_v27 (ix2 r j) k = ix2 k j :=
  funext fun a => by match a with | ⟨0, _⟩ => rfl | ⟨1, _⟩ => rfl
theorem lidx32 (r : Fin 100000) (j : Fin 384) (k : Fin 128) : lidx_main_v32 (ix2 r j) k = ix2 r k :=
  funext fun a => by match a with | ⟨0, _⟩ => rfl | ⟨1, _⟩ => rfl
theorem ridx32 (r : Fin 100000) (j : Fin 384) (k : Fin 128) : ridx_main_v32 (ix2 r j) k = ix2 k j :=
  funext fun a => by match a with | ⟨0, _⟩ => rfl | ⟨1, _⟩ => rfl

/-- The two biases of width 384 spread over the rows read the bias at the column. -/
theorem idx29 (r : Fin 100000) (j : Fin 384) : idx_main_v29 (ix2 r j) = ix2 (0 : Fin 1) j :=
  funext fun a => by match a with | ⟨0, _⟩ => rfl | ⟨1, _⟩ => rfl
theorem idx28 (j : Fin 384) : idx_main_v28 (ix2 (0 : Fin 1) j) = ix1 j :=
  funext fun a => by match a with | ⟨0, _⟩ => rfl
theorem idx34 (r : Fin 100000) (j : Fin 384) : idx_main_v34 (ix2 r j) = ix2 (0 : Fin 1) j :=
  funext fun a => by match a with | ⟨0, _⟩ => rfl | ⟨1, _⟩ => rfl
theorem idx33 (j : Fin 384) : idx_main_v33 (ix2 (0 : Fin 1) j) = ix1 j :=
  funext fun a => by match a with | ⟨0, _⟩ => rfl

/-- The six slices at `(r, q)` read column `q` of the first, second or third group of 128 columns. -/
theorem idx36 (r : Fin 100000) (q : Fin 128) : idx_main_v36 (ix2 r q) = ix2 r (Cert.GruSpec.col0 q) :=
  funext fun a => by match a with | ⟨0, _⟩ => rfl | ⟨1, _⟩ => rfl
theorem idx37 (r : Fin 100000) (q : Fin 128) : idx_main_v37 (ix2 r q) = ix2 r (Cert.GruSpec.col1 q) :=
  funext fun a => by
    match a with
    | ⟨0, _⟩ => rfl
    | ⟨1, _⟩ => exact Fin.ext (Nat.add_comm 128 q.val)
theorem idx38 (r : Fin 100000) (q : Fin 128) : idx_main_v38 (ix2 r q) = ix2 r (Cert.GruSpec.col2 q) :=
  funext fun a => by
    match a with
    | ⟨0, _⟩ => rfl
    | ⟨1, _⟩ => exact Fin.ext (Nat.add_comm 256 q.val)
theorem idx39 (r : Fin 100000) (q : Fin 128) : idx_main_v39 (ix2 r q) = ix2 r (Cert.GruSpec.col0 q) :=
  funext fun a => by match a with | ⟨0, _⟩ => rfl | ⟨1, _⟩ => rfl
theorem idx40 (r : Fin 100000) (q : Fin 128) : idx_main_v40 (ix2 r q) = ix2 r (Cert.GruSpec.col1 q) :=
  funext fun a => by
    match a with
    | ⟨0, _⟩ => rfl
    | ⟨1, _⟩ => exact Fin.ext (Nat.add_comm 128 q.val)
theorem idx41 (r : Fin 100000) (q : Fin 128) : idx_main_v41 (ix2 r q) = ix2 r (Cert.GruSpec.col2 q) :=
  funext fun a => by
    match a with
    | ⟨0, _⟩ => rfl
    | ⟨1, _⟩ => exact Fin.ext (Nat.add_comm 256 q.val)

/-! ## The normalisation and the normalised features -/

/-- The normalisation of row `r`: the in-degree clipped below by one, raised to the power −1/2. -/
theorem norm_apply (x8 : (⟨S1600000, .i32⟩ : BufTy).Contents (Elt Ideal)) (r : Fin 100000) :
    val_main_v7 (F := Ideal) x8 (ix2 r (0 : Fin 1))
      = Ideal.pow (max Cert.GruSpec.one (val_main_v3 (F := Ideal) x8 (ix1 r))) (Ideal.ofBits .f32 0xBF000000#32) := by
  rw [val_main_v7_apply, idx7, val_main_v6_apply, val_main_v4_apply, val_main_call0_v1_apply, val_main_call0_v0_apply,
    val_main_cst_1_apply, val_main_v5_apply, val_main_cst_2_apply]
  rfl

/-- The normalised feature at `(r, k)` is the feature times the row's normalisation. -/
theorem featn_apply (x0 : (⟨S100000x128, .f32⟩ : BufTy).Contents (Elt Ideal)) (x8 : (⟨S1600000, .i32⟩ : BufTy).Contents (Elt Ideal))
    (r : Fin 100000) (k : Fin 128) :
    val_main_v9 (F := Ideal) x0 x8 (ix2 r k) = x0 (ix2 r k) * val_main_v7 (F := Ideal) x8 (ix2 r (0 : Fin 1)) := by
  rw [val_main_v9_apply, val_main_v8_apply, idx8]
  rfl

/-! ## The hidden row and the two pre-activations -/

/-- The hidden entry at `(r, c)`: the dense transform of row `r` of the aggregated array, scaled by the row's
    normalisation, plus the bias. -/
theorem rst_apply (x0 : (⟨S100000x128, .f32⟩ : BufTy).Contents (Elt Ideal)) (x1 : (⟨S128x128, .f32⟩ : BufTy).Contents (Elt Ideal))
    (x2 : (⟨S128, .f32⟩ : BufTy).Contents (Elt Ideal)) (x7 x8 : (⟨S1600000, .i32⟩ : BufTy).Contents (Elt Ideal))
    (r : Fin 100000) (c : Fin 128) :
    val_main_v25 (F := Ideal) x0 x1 x2 x7 x8 (ix2 r c)
      = Cert.GruSpec.hid (fun k => val_main_v19 (F := Ideal) x0 x7 x8 (ix2 r k))
          (val_main_v7 (F := Ideal) x8 (ix2 r (0 : Fin 1))) (fun k c => x1 (ix2 k c)) (fun c => x2 (ix1 c)) c := by
  rw [val_main_v25_apply, val_main_v22_apply, val_main_v20_apply, val_main_v21_apply, idx21, val_main_v24_apply,
    val_main_v23_apply, idx24, idx23]
  simp only [lidx20, ridx20]
  rfl

/-- The first pre-activation at `(r, j)`: an affine map of row `r` of the normalised features. -/
theorem gi_apply (x0 : (⟨S100000x128, .f32⟩ : BufTy).Contents (Elt Ideal)) (x3 : (⟨S384x128, .f32⟩ : BufTy).Contents (Elt Ideal))
    (x5 : (⟨S384, .f32⟩ : BufTy).Contents (Elt Ideal)) (x8 : (⟨S1600000, .i32⟩ : BufTy).Contents (Elt Ideal))
    (r : Fin 100000) (j : Fin 384) :
    val_main_v30 (F := Ideal) x0 x3 x5 x8 (ix2 r j)
      = Cert.GruSpec.pre (fun k => val_main_v9 (F := Ideal) x0 x8 (ix2 r k))
          (fun k j => val_main_v26 (F := Ideal) x3 (ix2 k j)) (fun j => x5 (ix1 j)) j := by
  rw [val_main_v30_apply, val_main_v27_apply, val_main_v29_apply, val_main_v28_apply, idx29, idx28]
  simp only [lidx27, ridx27]
  rfl

/-- The second pre-activation at `(r, j)`: the same affine form of row `r` of the hidden array. -/
theorem gh_apply (x0 : (⟨S100000x128, .f32⟩ : BufTy).Contents (Elt Ideal)) (x1 : (⟨S128x128, .f32⟩ : BufTy).Contents (Elt Ideal))
    (x2 : (⟨S128, .f32⟩ : BufTy).Contents (Elt Ideal)) (x4 : (⟨S384x128, .f32⟩ : BufTy).Contents (Elt Ideal))
    (x6 : (⟨S384, .f32⟩ : BufTy).Contents (Elt Ideal)) (x7 x8 : (⟨S1600000, .i32⟩ : BufTy).Contents (Elt Ideal))
    (r : Fin 100000) (j : Fin 384) :
    val_main_v35 (F := Ideal) x0 x1 x2 x4 x6 x7 x8 (ix2 r j)
      = Cert.GruSpec.pre
          (Cert.GruSpec.hid (fun k => val_main_v19 (F := Ideal) x0 x7 x8 (ix2 r k))
            (val_main_v7 (F := Ideal) x8 (ix2 r (0 : Fin 1))) (fun k c => x1 (ix2 k c)) (fun c => x2 (ix1 c)))
          (fun k j => val_main_v31 (F := Ideal) x4 (ix2 k j)) (fun j => x6 (ix1 j)) j := by
  rw [val_main_v35_apply, val_main_v32_apply, val_main_v34_apply, val_main_v33_apply, idx34, idx33]
  simp only [lidx32, ridx32, rst_apply]
  rfl

/-! ## The gated cell -/

/-- The reference's result at `(r, q)` is the node update of row `r` at column `q`. -/
theorem ref_apply (x0 : (⟨S100000x128, .f32⟩ : BufTy).Contents (Elt Ideal)) (x1 : (⟨S128x128, .f32⟩ : BufTy).Contents (Elt Ideal))
    (x2 : (⟨S128, .f32⟩ : BufTy).Contents (Elt Ideal)) (x3 x4 : (⟨S384x128, .f32⟩ : BufTy).Contents (Elt Ideal))
    (x5 x6 : (⟨S384, .f32⟩ : BufTy).Contents (Elt Ideal)) (x7 x8 : (⟨S1600000, .i32⟩ : BufTy).Contents (Elt Ideal))
    (r : Fin 100000) (q : Fin 128) :
    val_main_v63 (F := Ideal) x0 x1 x2 x3 x4 x5 x6 x7 x8 (ix2 r q)
      = Cert.GruSpec.out (fun k => val_main_v19 (F := Ideal) x0 x7 x8 (ix2 r k)) (fun k => val_main_v9 (F := Ideal) x0 x8 (ix2 r k))
          (val_main_v7 (F := Ideal) x8 (ix2 r (0 : Fin 1)))
          (fun k c => x1 (ix2 k c)) (fun c => x2 (ix1 c))
          (fun k j => val_main_v26 (F := Ideal) x3 (ix2 k j)) (fun k j => val_main_v31 (F := Ideal) x4 (ix2 k j))
          (fun j => x5 (ix1 j)) (fun j => x6 (ix1 j)) q := by
  rw [val_main_v63_apply, val_main_v61_apply, val_main_v60_apply, val_main_v59_apply, val_main_cst_9_apply,
    val_main_v58_apply, val_main_v57_apply, val_main_v56_apply, val_main_v48_apply, val_main_v47_apply, val_main_cst_6_apply,
    val_main_v46_apply, val_main_v45_apply, val_main_cst_5_apply, val_main_v44_apply, val_main_v43_apply, val_main_v42_apply,
    val_main_v62_apply, val_main_v55_apply, val_main_v54_apply, val_main_cst_8_apply, val_main_v53_apply, val_main_v52_apply,
    val_main_cst_7_apply, val_main_v51_apply, val_main_v50_apply, val_main_v49_apply,
    val_main_v36_apply, val_main_v37_apply, val_main_v38_apply, val_main_v39_apply, val_main_v40_apply, val_main_v41_apply,
    idx36, idx37, idx38, idx39, idx40, idx41]
  simp only [gi_apply, gh_apply, rst_apply]
  rfl

/-! ## The two transposed parameter matrices -/

/-- The transposed matrices at `(k, j)` read the parameter at `(j, k)`. -/
theorem idx26 (k : Fin 128) (j : Fin 384) : idx_main_v26 (ix2 k j) = ix2 j k :=
  funext fun a => by match a with | ⟨0, _⟩ => rfl | ⟨1, _⟩ => rfl
theorem idx31 (k : Fin 128) (j : Fin 384) : idx_main_v31 (ix2 k j) = ix2 j k :=
  funext fun a => by match a with | ⟨0, _⟩ => rfl | ⟨1, _⟩ => rfl

theorem wih_apply (x3 : (⟨S384x128, .f32⟩ : BufTy).Contents (Elt Ideal)) (k : Fin 128) (j : Fin 384) :
    val_main_v26 (F := Ideal) x3 (ix2 k j) = x3 (ix2 j k) := by
  rw [val_main_v26_apply, idx26]

theorem whh_apply (x4 : (⟨S384x128, .f32⟩ : BufTy).Contents (Elt Ideal)) (k : Fin 128) (j : Fin 384) :
    val_main_v31 (F := Ideal) x4 (ix2 k j) = x4 (ix2 j k) := by
  rw [val_main_v31_apply, idx31]

end Cert.ReferenceIdeal.RefRow

end
-- ==== Proof.LibUnitAxes.lean ====
/-
  Unit axes added, dropped and spread, read at an index given by its coordinates.
  A cast that adds or drops an axis of extent 1 keeps every entry where it was, and a broadcast
  along an axis of extent 1 repeats the operand along that axis: at an index the result is the
  operand at the index with the unit coordinate put at 0 (or dropped). Stated for any extents over
  the literal-rank index constructors `ix1`, `ix2`, `ix3`: a vector [a] as a column [a, 1] and back,
  a column [a, 1] spread to [a, b], a matrix [a, b] as [a, b, 1] and as [a, 1, b], an array
  [a, 1, c] spread to [a, b, c], an array [1, b, c] spread to [a, b, c].
-/
import Idealize.ShloMosaic.Lib.Pipeline.Value
import Idealize.ShloMosaic.Lib.ValueIdx

noncomputable section

namespace Cert.LibUnitAxes

open Idealize.ShloMosaic Idealize.ShloMosaic.ValueIdx

variable {α : Type}

/-- A vector [a] cast to a column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] cast to a vector [a] reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A column [a, 1] spread to [a, b] reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix [a, b] cast to [a, b, 1] reads, at (p, q, u), the matrix at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A matrix [a, b] cast to [a, 1, b] reads, at (p, u, q), the matrix at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An array [a, 1, c] spread to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An array [1, b, c] spread to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end Cert.LibUnitAxes

end
-- ==== Proof.Blocks0.lean ====
/-
  Region 0 (the degree normalisation), from blocks to whole arrays.

  The region walks 25 blocks of 4000 rows. At every row it computes the scalar rsqrt (max 1 deg) from the
  degree column and scales the feature row by it. Each block of the two results is the restriction of ONE
  function of the whole input arrays (row by row, nothing crosses rows), and the 25 blocks tile the 100000 rows,
  so after the write-backs the two result arrays are those functions, entry by entry.
-/
import proofs.«153496_j30734785970522_1_alg».proof.Proof.Gen.KernelIdeal.Frame
import proofs.«153496_j30734785970522_1_alg».proof.Proof.GruSpec
import proofs.«153496_j30734785970522_1_alg».proof.Proof.LibUnitAxes
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The two payloads at an entry -/

/-- The zero offsets of a rank-2 block, as the constant function. -/
theorem zero2 : (![0, 0] : Fin 2 → Nat) = fun _ => 0 := funext fun a => by fin_cases a <;> rfl

/-- The normalisation of one block of the degree column, entry by entry: rsqrt (max 1 deg). -/
theorem norm_block_apply (x : Vec Ideal S4000x1 .f32) (j : S4000x1.Idx) :
    k0_pay1 (F := Ideal) x j = Ideal.rsqrt (max Cert.GruSpec.one (x j)) := by
  unfold k0_pay1
  rw [shapeCast_self]
  rfl

/-- The scaled feature block, entry by entry: the feature times its row's normalisation (`j'` is the entry of the
    column on the row of `j`). -/
theorem featn_block_apply (x1 : Vec Ideal S4000x1 .f32) (x0 : Vec Ideal S4000x128 .f32) (j : S4000x128.Idx) (j' : S4000x1.Idx)
    (h0 : (j' 0).val = (j 0).val) (h1 : (j' 1).val = 0) :
    k0_pay2 (F := Ideal) x1 x0 j = x0 j * Ideal.rsqrt (max Cert.GruSpec.one (x1 j')) := by
  unfold k0_pay2
  show x0 j * broadcastTo S4000x128 (k0_pay1 x1) broadcasts_S4000x1_S4000x128 j = _
  have hb : broadcastTo S4000x128 (k0_pay1 x1) broadcasts_S4000x1_S4000x128 j = k0_pay1 x1 j' :=
    broadcastTo_apply (k0_pay1 x1) broadcasts_S4000x1_S4000x128 j j' fun a => by
      match a with
      | ⟨0, _⟩ => exact h0
      | ⟨1, _⟩ => exact h1
  rw [hb, norm_block_apply]

/-! ## The index maps over the grid -/

/-- At grid point `t` every window of the region stages row block `t`, and the one column block there is. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## The normalisation column (window 3) -/

/-- The whole normalisation column as a function of the whole degree column. -/
abbrev normOf (d : S100000x1.Idx → EReal) : S100000x1.Idx → EReal :=
  fun i => Ideal.rsqrt (max Cert.GruSpec.one (d i))

/-- What point `t` writes back to the normalisation column is block `t` of `normOf` of the degree column. -/
theorem flushed_norm (c : Dev nD) (t : Fin cfg0.N) :
    (dat0 (F := Ideal) V c).flushed 3 t = ((cfg0.win 3).blk t).view.read (Elt Ideal) (normOf (V c main_v4)) := by
  show (cfg0.win 3).cut (grid0.coords t) ((dat0 V c).after 3 t) = _
  rw [after0_3]
  unfold out0_3
  rw [View.canon_unit_zero zero2]
  simp only [View.ld_unit_zero (S := S4000x1) zero2]
  obtain ⟨e00, e01, e10, e11, e20, e21, e30, e31⟩ := index_facts t
  funext j
  show k0_pay1 (iblk0 V c 1 t) j = normOf (V c main_v4) (((cfg0.win 3).blk t).view.emb j)
  rw [norm_block_apply]
  show Ideal.rsqrt (max Cert.GruSpec.one (V c main_v4 (((cfg0.win 1).blk t).view.emb j)))
    = Ideal.rsqrt (max Cert.GruSpec.one (V c main_v4 (((cfg0.win 3).blk t).view.emb j)))
  have h : ((cfg0.win 1).blk t).view.emb j = ((cfg0.win 3).blk t).view.emb j := by
    funext a; apply Fin.ext
    match a with
    | ⟨0, _⟩ => show win0_1.index t (0 : Fin 2) * 4000 + 1 * (j 0).val = win0_3.index t (0 : Fin 2) * 4000 + 1 * (j 0).val; omega
    | ⟨1, _⟩ => show win0_1.index t (1 : Fin 2) * 1 + 1 * (j 1).val = win0_3.index t (1 : Fin 2) * 1 + 1 * (j 1).val; omega
  rw [h]

/-- An index of the column is in point `t`'s block iff each coordinate is in the block's range on its axis. -/
theorem mem_blk_norm (t : Fin cfg0.N) (i : S100000x1.Idx) :
    i ∈ ((cfg0.win 3).blk t).view.set ↔ ∀ a : Fin 2, win0_3.index t a * S4000x1.size a ≤ (i a).val ∧ (i a).val < win0_3.index t a * S4000x1.size a + S4000x1.size a := by
  show i ∈ ((View.whole main_v5_1).slice (win0_3.rect t)).set ↔ _
  rw [View.set_slice_whole, Rect.mem_set_unit]
  exact Iff.rfl

/-- Every row of the column is in some point's block: row `r` is in block `r / 4000`. -/
theorem cover_norm (i : S100000x1.Idx) :
    ∃ t : Fin cfg0.N, (cfg0.win 3).flush t = true ∧ i ∈ ((cfg0.win 3).blk t).view.set := by
  have hi0 : (i 0).val < 100000 := (i 0).isLt
  have hi1 : (i 1).val < 1 := (i 1).isLt
  refine ⟨⟨(i 0).val / 4000, by show (i 0).val / 4000 < 25; omega⟩, flush0_3 _, ?_⟩
  rw [mem_blk_norm]
  obtain ⟨e00, e01, e10, e11, e20, e21, e30, e31⟩ := index_facts ⟨(i 0).val / 4000, by show (i 0).val / 4000 < 25; omega⟩
  intro a
  match a with
  | ⟨0, _⟩ =>
    show win0_3.index _ (0 : Fin 2) * 4000 ≤ (i 0).val ∧ (i 0).val < win0_3.index _ (0 : Fin 2) * 4000 + 4000
    rw [e30]; show (i 0).val / 4000 * 4000 ≤ (i 0).val ∧ (i 0).val < (i 0).val / 4000 * 4000 + 4000; omega
  | ⟨1, _⟩ =>
    show win0_3.index _ (1 : Fin 2) * 1 ≤ (i 1).val ∧ (i 1).val < win0_3.index _ (1 : Fin 2) * 1 + 1
    rw [e31]; omega

/-- The normalisation column after the region: rsqrt (max 1 deg), row by row. -/
theorem final0_3 (c : Dev nD) (r : Fin 100000) :
    (dat0 (F := Ideal) V c).arrAt 3 cfg0.N (ix2 r (0 : Fin 1))
      = Ideal.rsqrt (max Cert.GruSpec.one ((V c main_v4 : S100000x1.Idx → EReal) (ix2 r (0 : Fin 1)))) :=
  congrFun ((dat0 (F := Ideal) V c).arrAt_eq_of_cover 3 (normOf (V c main_v4)) (fun t _ => flushed_norm V c t) cover_norm) (ix2 r (0 : Fin 1))

/-! ## The scaled features (window 2) -/

/-- The whole scaled feature array as a function of the whole feature array and the whole degree column. -/
abbrev featnOf (f : S100000x128.Idx → EReal) (d : S100000x1.Idx → EReal) : S100000x128.Idx → EReal :=
  fun i => f i * Ideal.rsqrt (max Cert.GruSpec.one (d (ix2 (i 0) (0 : Fin 1))))

/-- What point `t` writes back to the scaled features is block `t` of `featnOf` of the features and the degrees. -/
theorem flushed_featn (c : Dev nD) (t : Fin cfg0.N) :
    (dat0 (F := Ideal) V c).flushed 2 t
      = ((cfg0.win 2).blk t).view.read (Elt Ideal) (featnOf (V c main_arg0) (V c main_v4)) := by
  show (cfg0.win 2).cut (grid0.coords t) ((dat0 V c).after 2 t) = _
  rw [after0_2]
  unfold out0_2
  rw [View.canon_unit_zero zero2]
  simp only [View.ld_unit_zero (S := S4000x1) zero2, View.ld_unit_zero (S := S4000x128) zero2]
  obtain ⟨e00, e01, e10, e11, e20, e21, e30, e31⟩ := index_facts t
  funext j
  refine (featn_block_apply (iblk0 V c 1 t) (iblk0 V c 0 t) j (ix2 (⟨(j 0).val, (j 0).isLt⟩ : Fin 4000) (0 : Fin 1)) rfl rfl).trans ?_
  have h0 : ((cfg0.win 0).blk t).view.emb j = ((cfg0.win 2).blk t).view.emb j := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb (ix2 (⟨(j 0).val, (j 0).isLt⟩ : Fin 4000) (0 : Fin 1))
      = ix2 ((((cfg0.win 2).blk t).view.emb j) 0) (0 : Fin 1) := by
    funext a; apply Fin.ext
    match a with
    | ⟨0, _⟩ => show win0_1.index t (0 : Fin 2) * 4000 + 1 * (j 0).val = win0_2.index t (0 : Fin 2) * 4000 + 1 * (j 0).val; omega
    | ⟨1, _⟩ => show win0_1.index t (1 : Fin 2) * 1 + 1 * 0 = 0; omega
  have hA : iblk0 V c 0 t j = V c main_arg0 (((cfg0.win 2).blk t).view.emb j) := by
    show V c main_arg0 (((cfg0.win 0).blk t).view.emb j) = _
    rw [h0]
  have hB : iblk0 V c 1 t (ix2 (⟨(j 0).val, (j 0).isLt⟩ : Fin 4000) (0 : Fin 1))
      = V c main_v4 (ix2 ((((cfg0.win 2).blk t).view.emb j) 0) (0 : Fin 1)) := by
    exact congrArg (fun i : S100000x1.Idx => (V c main_v4 : S100000x1.Idx → EReal) i) h1
  exact congrArg₂ (fun a b : EReal => a * Ideal.rsqrt (max Cert.GruSpec.one b)) hA hB

/-- An index of the array is in point `t`'s block iff each coordinate is in the block's range on its axis. -/
theorem mem_blk_featn (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v5_0).slice (win0_2.rect t)).set ↔ _
  rw [View.set_slice_whole, Rect.mem_set_unit]
  exact Iff.rfl

/-- Every entry of the array is in some point's block: row `r` is in block `r / 4000`. -/
theorem cover_featn (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 4000, by show (i 0).val / 4000 < 25; omega⟩, flush0_2 _, ?_⟩
  rw [mem_blk_featn]
  obtain ⟨e00, e01, e10, e11, e20, e21, e30, e31⟩ := index_facts ⟨(i 0).val / 4000, by show (i 0).val / 4000 < 25; omega⟩
  intro a
  match a with
  | ⟨0, _⟩ =>
    show win0_2.index _ (0 : Fin 2) * 4000 ≤ (i 0).val ∧ (i 0).val < win0_2.index _ (0 : Fin 2) * 4000 + 4000
    rw [e20]; show (i 0).val / 4000 * 4000 ≤ (i 0).val ∧ (i 0).val < (i 0).val / 4000 * 4000 + 4000; omega
  | ⟨1, _⟩ =>
    show win0_2.index _ (1 : Fin 2) * 128 ≤ (i 1).val ∧ (i 1).val < win0_2.index _ (1 : Fin 2) * 128 + 128
    rw [e21]; omega

/-- A feature scaled by its row's normalisation: x · rsqrt (max 1 d). -/
def scaled (x d : EReal) : EReal := x * Ideal.rsqrt (max Cert.GruSpec.one d)

/-- The scaled features after the region: each feature times its row's rsqrt (max 1 deg). -/
theorem final0_2 (c : Dev nD) (r : Fin 100000) (k : Fin 128) :
    (dat0 (F := Ideal) V c).arrAt 2 cfg0.N (ix2 r k)
      = scaled ((V c main_arg0 : S100000x128.Idx → EReal) (ix2 r k)) ((V c main_v4 : S100000x1.Idx → EReal) (ix2 r (0 : Fin 1))) :=
  congrFun ((dat0 (F := Ideal) V c).arrAt_eq_of_cover 2 (featnOf (V c main_arg0) (V c main_v4)) (fun t _ => flushed_featn V c t) cover_featn) (ix2 r k)

/-- The same with the product spelt out. -/
theorem final0_2_mul (c : Dev nD) (r : Fin 100000) (k : Fin 128) :
    (dat0 (F := Ideal) V c).arrAt 2 cfg0.N (ix2 r k)
      = HMul.hMul (α := EReal) (β := EReal) (γ := EReal) ((V c main_arg0 : S100000x128.Idx → EReal) (ix2 r k))
          (Ideal.rsqrt (max Cert.GruSpec.one ((V c main_v4 : S100000x1.Idx → EReal) (ix2 r (0 : Fin 1))))) :=
  final0_2 V c r k

end Cert.KernelIdeal.Blocks

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibRowBias.lean ====
/-
  A vector laid along every row of a matrix, read at an entry. A kernel spells it as the broadcast down the rows of the
  vector's one-row cast; a host program as two broadcasts, first to a one-row matrix along axis 1 and then down the rows.
  Either way the entry at row r and column k is the vector's entry k. Nothing here depends on a program or on the
  element type.
-/
import Idealize.ShloMosaic.Lib.Pipeline.Value
import Idealize.ShloMosaic.Lib.ValueIdx
import Idealize.ShloMosaic.Lib.KernelVsHost

namespace Cert.LibRowBias

open Idealize.ShloMosaic Idealize.ShloMosaic.ValueIdx

variable {α : Type}

/-- The kernel's spelling: the vector cast to one row, the row broadcast down m rows. -/
theorem rowCast_broadcast_apply {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (k : Fin n) :
    broadcastTo ⟨2, ![m, n]⟩ (shapeCast ⟨2, ![1, n]⟩ b h1) hb (ix2 p k) = b (ix1 k) := by
  have e1 := broadcastTo_apply (shapeCast ⟨2, ![1, n]⟩ b h1) hb (ix2 p k) (ix2 (0 : Fin 1) k) (by
    intro a
    match a with
    | ⟨0, _⟩ => rfl
    | ⟨1, _⟩ =>
      show k.val = if n = 1 then 0 else k.val
      split
      · have := k.isLt; omega
      · rfl)
  have e2 := shapeCast_apply b h1 (ix2 (0 : Fin 1) k) (ix1 k) (by
    rw [Shape.rowMajor_val_two, Shape.rowMajor_val_one]; show k.val = 0 * n + k.val; omega)
  exact e1.trans e2

/-- The host's spelling: the vector broadcast along axis 1 to one row, the row broadcast down m rows. -/
theorem row_broadcastInDim_apply {m n : Nat} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (k : Fin n) :
    broadcastInDim ⟨2, ![m, n]⟩ ![0, 1] hd2 (broadcastInDim ⟨2, ![1, n]⟩ ![1] hd1 b) (ix2 r k) = b (ix1 k) := by
  refine (broadcastInDim_oneRow_apply hd2 _ r k).trans ?_
  refine broadcastInDim_apply ![1] hd1 b (ix2 (0 : Fin 1) k) (ix1 k) ?_
  intro a
  match a with
  | ⟨0, _⟩ =>
    show k.val = if n = 1 then 0 else k.val
    split
    · have := k.isLt; omega
    · rfl

end Cert.LibRowBias
-- ==== Proof.GruBlock.lean ====
/-
  The second region's output block, read at an entry.

  For a block of 4000 nodes the region receives the aggregated rows, the normalised feature rows, the column of degree
  normalisations, and the parameters, and leaves one block of 4000 × 128 outputs. Entry (p, q) of that block depends only
  on row p of the three row-wise inputs: it is the gated recurrent cell's output of GruSpec, column q, at node p's data.
  The steps: the hidden row is a matrix product into the zero splat (a sum over the contracted coordinate), times the
  normalisation column spread along the columns, plus the bias laid along the rows; the two pre-activations are matrix
  products plus biases laid along the rows; the three column groups are unit-stride slices at column offsets 0, 128 and
  256; the gates are pointwise. The program negates as 0 − x, which on the extended reals is −x.
-/
import proofs.«153496_j30734785970522_1_alg».proof.Proof.Gen.KernelIdeal.Frame
import proofs.«153496_j30734785970522_1_alg».proof.Proof.GruSpec
import proofs.«153496_j30734785970522_1_alg».proof.Proof.LibMatmulAt
import proofs.«153496_j30734785970522_1_alg».proof.Proof.LibUnitAxes
import proofs.«153496_j30734785970522_1_alg».proof.Proof.LibRowBias
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.GruBlock

open Cert.KernelIdeal Cert.KernelIdeal.Gen Idealize.ShloMosaic Idealize.ShloMosaic.ValueIdx

/-- The hidden rows: entry (p, c) is the dense transform of row p of the aggregated block, scaled by node p's
    normalisation, plus the bias at c. -/
theorem pay2_apply (v0 : Vec Ideal S4000x128 .f32) (v4 : Vec Ideal S4000x1 .f32) (v6 : Vec Ideal S128x128 .f32)
    (v7 : Vec Ideal S128 .f32) (p : Fin 4000) (c : Fin 128) :
    k1_pay2 (F := Ideal) v0 v4 v6 v7 (ix2 p c)
      = Cert.GruSpec.hid (fun k => v0 (ix2 p k)) (v4 (ix2 p (0 : Fin 1))) (fun k c => v6 (ix2 k c)) (fun c => v7 (ix1 c)) c := by
  have e1 : matmul (φ₁ := .f32) (φ₂ := .f32) dot_S4000x128_S128x128_S4000x128_1_0_0_1_n_n none
        (shapeCast S4000x128 v0 shapeCasts_S4000x128_S4000x128) v6 (constant (F := Ideal) S4000x128 .f32 0x00000000#32) (ix2 p c)
      = ∑ k : Fin 128, v0 (ix2 p k) * v6 (ix2 k c) := by
    rw [shapeCast_self]
    exact Cert.KernelIdeal.Hand.matmul_zero_plain_apply (φ₁ := .f32) (φ₂ := .f32) _ rfl none v0 v6 (ix2 p c)
  have e2 : broadcastTo S4000x128 (shapeCast S4000x1 v4 shapeCasts_S4000x1_S4000x1) broadcasts_S4000x1_S4000x128 (ix2 p c)
      = v4 (ix2 p (0 : Fin 1)) := by
    rw [shapeCast_self]
    exact Cert.LibUnitAxes.broadcastTo_a1_ab_apply v4 broadcasts_S4000x1_S4000x128 p c
  have e3 : broadcastTo S4000x128 (shapeCast S1x128 v7 shapeCasts_S128_S1x128) broadcasts_S1x128_S4000x128 (ix2 p c)
      = v7 (ix1 c) :=
    Cert.LibRowBias.rowCast_broadcast_apply v7 shapeCasts_S128_S1x128 broadcasts_S1x128_S4000x128 p c
  unfold k1_pay2 Cert.GruSpec.hid
  exact congrArg₂ (· + ·) (congrArg₂ (· * ·) e1 e2) e3

/-- The pre-activation of the feature rows: entry (p, j) is the affine map of row p of the feature block. -/
theorem pay3_apply (v2 : Vec Ideal S4000x128 .f32) (v8 : Vec Ideal S128x384 .f32) (v12 : Vec Ideal S384 .f32)
    (p : Fin 4000) (j : Fin 384) :
    k1_pay3 (F := Ideal) v2 v8 v12 (ix2 p j)
      = Cert.GruSpec.pre (fun k => v2 (ix2 p k)) (fun k j => v8 (ix2 k j)) (fun j => v12 (ix1 j)) j := by
  have e1 : matmul (φ₁ := .f32) (φ₂ := .f32) dot_S4000x128_S128x384_S4000x384_1_0_0_1_n_n none
        (shapeCast S4000x128 v2 shapeCasts_S4000x128_S4000x128) (shapeCast S128x384 v8 shapeCasts_S128x384_S128x384)
        (constant (F := Ideal) S4000x384 .f32 0x00000000#32) (ix2 p j)
      = ∑ k : Fin 128, v2 (ix2 p k) * v8 (ix2 k j) := by
    rw [shapeCast_self, shapeCast_self]
    exact Cert.KernelIdeal.Hand.matmul_zero_plain_apply (φ₁ := .f32) (φ₂ := .f32) _ rfl none v2 v8 (ix2 p j)
  have e3 : broadcastTo S4000x384 (shapeCast S1x384 v12 shapeCasts_S384_S1x384) broadcasts_S1x384_S4000x384 (ix2 p j)
      = v12 (ix1 j) :=
    Cert.LibRowBias.rowCast_broadcast_apply v12 shapeCasts_S384_S1x384 broadcasts_S1x384_S4000x384 p j
  unfold k1_pay3 Cert.GruSpec.pre
  exact congrArg₂ (· + ·) e1 e3

/-- The pre-activation of the hidden rows: entry (p, j) is the affine map of node p's hidden row. -/
theorem pay4_apply (v0 : Vec Ideal S4000x128 .f32) (v4 : Vec Ideal S4000x1 .f32) (v6 : Vec Ideal S128x128 .f32)
    (v7 : Vec Ideal S128 .f32) (v10 : Vec Ideal S128x384 .f32) (v13 : Vec Ideal S384 .f32) (p : Fin 4000) (j : Fin 384) :
    k1_pay4 (F := Ideal) v0 v4 v6 v7 v10 v13 (ix2 p j)
      = Cert.GruSpec.pre
          (Cert.GruSpec.hid (fun k => v0 (ix2 p k)) (v4 (ix2 p (0 : Fin 1))) (fun k c => v6 (ix2 k c)) (fun c => v7 (ix1 c)))
          (fun k j => v10 (ix2 k j)) (fun j => v13 (ix1 j)) j := by
  have e1 : matmul (φ₁ := .f32) (φ₂ := .f32) dot_S4000x128_S128x384_S4000x384_1_0_0_1_n_n none
        (k1_pay2 (F := Ideal) v0 v4 v6 v7) (shapeCast S128x384 v10 shapeCasts_S128x384_S128x384)
        (constant (F := Ideal) S4000x384 .f32 0x00000000#32) (ix2 p j)
      = ∑ k : Fin 128, Cert.GruSpec.hid (fun k => v0 (ix2 p k)) (v4 (ix2 p (0 : Fin 1))) (fun k c => v6 (ix2 k c))
          (fun c => v7 (ix1 c)) k * v10 (ix2 k j) := by
    rw [shapeCast_self]
    refine (Cert.KernelIdeal.Hand.matmul_zero_plain_apply (φ₁ := .f32) (φ₂ := .f32) _ rfl none
      (k1_pay2 (F := Ideal) v0 v4 v6 v7) v10 (ix2 p j)).trans ?_
    exact Finset.sum_congr rfl fun k _ => congrArg (· * v10 (ix2 k j)) (pay2_apply v0 v4 v6 v7 p k)
  have e3 : broadcastTo S4000x384 (shapeCast S1x384 v13 shapeCasts_S384_S1x384) broadcasts_S1x384_S4000x384 (ix2 p j)
      = v13 (ix1 j) :=
    Cert.LibRowBias.rowCast_broadcast_apply v13 shapeCasts_S384_S1x384 broadcasts_S1x384_S4000x384 p j
  unfold k1_pay4 Cert.GruSpec.pre
  exact congrArg₂ (· + ·) e1 e3

/-- A slice of 128 columns at column offset 0 of a block of 384 columns reads column q of the first group. -/
theorem slice0_apply (x : FVec Ideal S4000x384 .f32) (p : Fin 4000) (q : Fin 128) :
    extractStridedSlice S4000x128 ![0, 0] x slices_S4000x384_o0_0_S4000x128 (ix2 p q) = x (ix2 p (Cert.GruSpec.col0 q)) :=
  extractStridedSlice_apply ![0, 0] x slices_S4000x384_o0_0_S4000x128 (ix2 p q) (ix2 p (Cert.GruSpec.col0 q)) fun a =>
    match a with
    | ⟨0, _⟩ => by show p.val = 0 + p.val; omega
    | ⟨1, _⟩ => by show q.val = 0 + q.val; omega

/-- At column offset 128: column q of the second group. -/
theorem slice1_apply (x : FVec Ideal S4000x384 .f32) (p : Fin 4000) (q : Fin 128) :
    extractStridedSlice S4000x128 ![0, 128] x slices_S4000x384_o0_128_S4000x128 (ix2 p q) = x (ix2 p (Cert.GruSpec.col1 q)) :=
  extractStridedSlice_apply ![0, 128] x slices_S4000x384_o0_128_S4000x128 (ix2 p q) (ix2 p (Cert.GruSpec.col1 q)) fun a =>
    match a with
    | ⟨0, _⟩ => by show p.val = 0 + p.val; omega
    | ⟨1, _⟩ => by show q.val + 128 = 128 + q.val; omega

/-- At column offset 256: column q of the third group. -/
theorem slice2_apply (x : FVec Ideal S4000x384 .f32) (p : Fin 4000) (q : Fin 128) :
    extractStridedSlice S4000x128 ![0, 256] x slices_S4000x384_o0_256_S4000x128 (ix2 p q) = x (ix2 p (Cert.GruSpec.col2 q)) :=
  extractStridedSlice_apply ![0, 256] x slices_S4000x384_o0_256_S4000x128 (ix2 p q) (ix2 p (Cert.GruSpec.col2 q)) fun a =>
    match a with
    | ⟨0, _⟩ => by show p.val = 0 + p.val; omega
    | ⟨1, _⟩ => by show q.val + 256 = 256 + q.val; omega

/-- The cell's pointwise arithmetic at an index, with the negation 0 − x read as −x: from the hidden value h, the
    second-group and third-group entries of the two pre-activations, and the exponential e already taken for the reset
    gate. -/
theorem pay1_apply (h gi1 gi2 gh1 gh2 e : FVec Ideal S4000x128 .f32) (i : S4000x128.Idx) :
    k1_pay1 (F := Ideal) h gi1 gi2 gh1 gh2 e (k1_pay10 (F := Ideal)) i
      = (Cert.GruSpec.one - Ideal.div Cert.GruSpec.one (Cert.GruSpec.one + Ideal.exp (-(gi1 i + gh1 i))))
            * Ideal.tanh (gi2 i + Ideal.div Cert.GruSpec.one (Cert.GruSpec.one + e i) * gh2 i)
          + Ideal.div Cert.GruSpec.one (Cert.GruSpec.one + Ideal.exp (-(gi1 i + gh1 i))) * h i := by
  have hneg : Ideal.ofBits .f32 0x00000000#32 - (gi1 i + gh1 i) = -(gi1 i + gh1 i) := by
    rw [Ideal.ofBits_zero_f32, zero_sub]
  rw [← hneg]
  rfl

/-- The exponential taken for the reset gate, at an index: exp of minus the sum of the two first-group entries. -/
theorem pay9_apply (v0 v2 : Vec Ideal S4000x128 .f32) (v4 : Vec Ideal S4000x1 .f32) (v6 : Vec Ideal S128x128 .f32)
    (v7 : Vec Ideal S128 .f32) (v8 v10 : Vec Ideal S128x384 .f32) (v12 v13 : Vec Ideal S384 .f32) (p : Fin 4000) (q : Fin 128) :
    k1_pay9 (F := Ideal) v0 v2 v4 v6 v7 v8 v10 v12 v13 (ix2 p q)
      = Ideal.exp (-(k1_pay3 (F := Ideal) v2 v8 v12 (ix2 p (Cert.GruSpec.col0 q))
          + k1_pay4 (F := Ideal) v0 v4 v6 v7 v10 v13 (ix2 p (Cert.GruSpec.col0 q)))) := by
  have hneg : ∀ x : EReal, Ideal.ofBits .f32 0x00000000#32 - x = -x := fun x => by
    rw [Ideal.ofBits_zero_f32, zero_sub]
  rw [← hneg, ← slice0_apply (k1_pay3 (F := Ideal) v2 v8 v12) p q, ← slice0_apply (k1_pay4 (F := Ideal) v0 v4 v6 v7 v10 v13) p q]
  rfl

/-- The origin of a rank-2 rectangle, spelt as a literal pair, is the zero offset function. -/
theorem hz : (![0, 0] : Fin 2 → Nat) = fun _ => 0 := funext fun a => by fin_cases a <;> rfl
/-- The same at rank 1. -/
theorem hz1 : (![0] : Fin 1 → Nat) = fun _ => 0 := funext fun a => by fin_cases a <;> rfl

/-- What the region leaves in its output block, entry (p, q): the cell's output for node p at column q. -/
theorem out1_9_apply (x0 x1 : Vec Ideal S4000x128 .f32) (x2 : Vec Ideal S4000x1 .f32) (x3 : Vec Ideal S128x128 .f32)
    (x4 : Vec Ideal S128 .f32) (x5 x6 : Vec Ideal S128x384 .f32) (x7 x8 : Vec Ideal S384 .f32) (p : Fin 4000) (q : Fin 128) :
    out1_9 (F := Ideal) x0 x1 x2 x3 x4 x5 x6 x7 x8 (ix2 p q)
      = Cert.GruSpec.out (fun k => x0 (ix2 p k)) (fun k => x1 (ix2 p k)) (x2 (ix2 p (0 : Fin 1)))
          (fun k c => x3 (ix2 k c)) (fun c => x4 (ix1 c)) (fun k j => x5 (ix2 k j)) (fun k j => x6 (ix2 k j))
          (fun j => x7 (ix1 j)) (fun j => x8 (ix1 j)) q := by
  unfold out1_9
  rw [View.canon_unit_zero hz]
  simp only [View.ld_unit_zero (S := S4000x128) hz, View.ld_unit_zero (S := S4000x1) hz, View.ld_unit_zero (S := S128x128) hz,
    View.ld_unit_zero (S := S128x384) hz, View.ld_unit_zero (S := S128) hz1, View.ld_unit_zero (S := S384) hz1]
  rw [pay1_apply, pay9_apply]
  unfold k1_pay5 k1_pay6 k1_pay7 k1_pay8
  rw [slice1_apply, slice2_apply, slice1_apply, slice2_apply]
  simp only [pay2_apply, pay3_apply, pay4_apply]
  rfl

end Cert.KernelIdeal.GruBlock

end
-- ==== Proof.Blocks1.lean ====
/-
  Region 1 (the dense transform and the gated cell), from blocks to the whole array.

  The region walks 25 blocks of 4000 rows. At every grid point it stages one block of rows of the aggregated array,
  of the normalised features and of the normalisation column, together with the whole parameter arrays, and leaves
  one block of 4000 × 128 outputs. Entry (p, q) of that block is the node update of row p of the staged blocks, and
  row p of block t is row 4000 · t + p of the arrays; so each block written back is the restriction of ONE function
  of the whole arrays (row by row, nothing crosses rows). The 25 blocks tile the 100000 rows, so after the
  write-backs the result array is that function, entry by entry.
-/
import proofs.«153496_j30734785970522_1_alg».proof.Proof.Gen.KernelIdeal.Frame
import proofs.«153496_j30734785970522_1_alg».proof.Proof.GruSpec
import proofs.«153496_j30734785970522_1_alg».proof.Proof.GruBlock
import Idealize.ShloMosaic.Lib.Pipeline.Value
import Idealize.ShloMosaic.Lib.ValueIdx

set_option maxRecDepth 16384

noncomputable section

namespace Cert.KernelIdeal.Blocks1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The node update depends on its nine arguments and its column only through their values -/

theorem out_congr {a a' f f' : Fin 128 → EReal} {n n' : EReal} {W W' : Fin 128 → Fin 128 → EReal} {b b' : Fin 128 → EReal}
    {Mi Mi' Mh Mh' : Fin 128 → Fin 384 → EReal} {βi βi' βh βh' : Fin 384 → EReal} {q q' : Fin 128}
    (ha : a = a') (hf : f = f') (hn : n = n') (hW : W = W') (hb : b = b') (hMi : Mi = Mi') (hMh : Mh = Mh')
    (hβi : βi = βi') (hβh : βh = βh') (hq : q = q') :
    Cert.GruSpec.out a f n W b Mi Mh βi βh q = Cert.GruSpec.out a' f' n' W' b' Mi' Mh' βi' βh' q' := by
  subst ha hf hn hW hb hMi hMh hβi hβh hq
  rfl

/-! ## The index maps over the grid -/

/-- At grid point `t` the three row-wise inputs and the output stage row block `t` (and the one column block there
    is); the six parameter windows stage their whole arrays. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (0 : Fin 1) = 0
    ∧ win1_9.index t (0 : Fin 2) = t.val ∧ win1_9.index t (1 : Fin 2) = 0 :=
  (by decide +kernel : ∀ t : Fin grid1.N, _)

/-! ## The result array as one function of the whole arrays -/

/-- Entry `i` of the result: the node update of row `i 0` of the three row-wise arrays, at column `i 1`. -/
abbrev outOf (agg featn : S100000x128.Idx → EReal) (norm : S100000x1.Idx → EReal) (W : S128x128.Idx → EReal)
    (b : S128.Idx → EReal) (Mi Mh : S128x384.Idx → EReal) (βi βh : S384.Idx → EReal) : S100000x128.Idx → EReal :=
  fun i => Cert.GruSpec.out (fun k => agg (ix2 (i 0) k)) (fun k => featn (ix2 (i 0) k)) (norm (ix2 (i 0) (0 : Fin 1)))
    (fun k c' => W (ix2 k c')) (fun c' => b (ix1 c')) (fun k j => Mi (ix2 k j)) (fun k j => Mh (ix2 k j))
    (fun j => βi (ix1 j)) (fun j => βh (ix1 j)) (i 1)

/-- What point `t` writes back is block `t` of `outOf` of the arrays as the region finds them. -/
theorem flushed_out (c : Dev nD) (t : Fin cfg1.N) :
    (dat1 (F := Ideal) V c).flushed 9 t
      = ((cfg1.win 9).blk t).view.read (Elt Ideal)
          (outOf (V c main_v15) (V c main_v5_0) (V c main_v5_1) (V c main_arg1) (V c main_arg2) (V c main_v16) (V c main_v17)
            (V c main_arg5) (V c main_arg6)) := by
  show (cfg1.win 9).cut (grid1.coords t) ((dat1 V c).after 9 t) = _
  rw [after1_9]
  obtain ⟨e00, e01, e10, e11, e20, e21, e30, e31, e40, e50, e51, e60, e61, e70, e80, e90, e91⟩ := index_facts t
  funext j
  obtain ⟨p, q, rfl⟩ : ∃ (p : Fin 4000) (q : Fin 128), j = ix2 p q := ⟨j 0, j 1, eq_ix2 j⟩
  refine (Cert.KernelIdeal.GruBlock.out1_9_apply (iblk1 V c 0 t) (iblk1 V c 1 t) (iblk1 V c 2 t) (iblk1 V c 3 t) (iblk1 V c 4 t)
    (iblk1 V c 5 t) (iblk1 V c 6 t) (iblk1 V c 7 t) (iblk1 V c 8 t) p q).trans ?_
  have ht : t.val < 25 := t.isLt
  have hp : p.val < 4000 := p.isLt
  -- the row of the arrays that row `p` of block `t` is
  have hR : t.val * 4000 + p.val < 100000 := by omega
  have hE : ((cfg1.win 9).blk t).view.emb (ix2 p q) = ix2 (⟨t.val * 4000 + p.val, hR⟩ : Fin 100000) q := by
    funext a; apply Fin.ext
    match a with
    | ⟨0, _⟩ => show win1_9.index t (0 : Fin 2) * 4000 + 1 * p.val = t.val * 4000 + p.val; omega
    | ⟨1, _⟩ => show win1_9.index t (1 : Fin 2) * 128 + 1 * q.val = q.val; omega
  have h0 : ∀ k : Fin 128, ((cfg1.win 0).blk t).view.emb (ix2 p k) = ix2 (⟨t.val * 4000 + p.val, hR⟩ : Fin 100000) k := fun k => by
    funext a; apply Fin.ext
    match a with
    | ⟨0, _⟩ => show win1_0.index t (0 : Fin 2) * 4000 + 1 * p.val = t.val * 4000 + p.val; omega
    | ⟨1, _⟩ => show win1_0.index t (1 : Fin 2) * 128 + 1 * k.val = k.val; omega
  have h1 : ∀ k : Fin 128, ((cfg1.win 1).blk t).view.emb (ix2 p k) = ix2 (⟨t.val * 4000 + p.val, hR⟩ : Fin 100000) k := fun k => by
    funext a; apply Fin.ext
    match a with
    | ⟨0, _⟩ => show win1_1.index t (0 : Fin 2) * 4000 + 1 * p.val = t.val * 4000 + p.val; omega
    | ⟨1, _⟩ => show win1_1.index t (1 : Fin 2) * 128 + 1 * k.val = k.val; omega
  have h2 : ((cfg1.win 2).blk t).view.emb (ix2 p (0 : Fin 1)) = ix2 (⟨t.val * 4000 + p.val, hR⟩ : Fin 100000) (0 : Fin 1) := by
    funext a; apply Fin.ext
    match a with
    | ⟨0, _⟩ => show win1_2.index t (0 : Fin 2) * 4000 + 1 * p.val = t.val * 4000 + p.val; omega
    | ⟨1, _⟩ => show win1_2.index t (1 : Fin 2) * 1 + 1 * 0 = 0; omega
  have h3 : ∀ (k c' : Fin 128), ((cfg1.win 3).blk t).view.emb (ix2 k c') = ix2 k c' := fun k c' => by
    funext a; apply Fin.ext
    match a with
    | ⟨0, _⟩ => show win1_3.index t (0 : Fin 2) * 128 + 1 * k.val = k.val; omega
    | ⟨1, _⟩ => show win1_3.index t (1 : Fin 2) * 128 + 1 * c'.val = c'.val; omega
  have h4 : ∀ (c' : Fin 128), ((cfg1.win 4).blk t).view.emb (ix1 c') = ix1 c' := fun c' => by
    funext a; apply Fin.ext
    match a with
    | ⟨0, _⟩ => show win1_4.index t (0 : Fin 1) * 128 + 1 * c'.val = c'.val; omega
  have h5 : ∀ (k : Fin 128) (j : Fin 384), ((cfg1.win 5).blk t).view.emb (ix2 k j) = ix2 k j := fun k j => by
    funext a; apply Fin.ext
    match a with
    | ⟨0, _⟩ => show win1_5.index t (0 : Fin 2) * 128 + 1 * k.val = k.val; omega
    | ⟨1, _⟩ => show win1_5.index t (1 : Fin 2) * 384 + 1 * j.val = j.val; omega
  have h6 : ∀ (k : Fin 128) (j : Fin 384), ((cfg1.win 6).blk t).view.emb (ix2 k j) = ix2 k j := fun k j => by
    funext a; apply Fin.ext
    match a with
    | ⟨0, _⟩ => show win1_6.index t (0 : Fin 2) * 128 + 1 * k.val = k.val; omega
    | ⟨1, _⟩ => show win1_6.index t (1 : Fin 2) * 384 + 1 * j.val = j.val; omega
  have h7 : ∀ (j : Fin 384), ((cfg1.win 7).blk t).view.emb (ix1 j) = ix1 j := fun j => by
    funext a; apply Fin.ext
    match a with
    | ⟨0, _⟩ => show win1_7.index t (0 : Fin 1) * 384 + 1 * j.val = j.val; omega
  have h8 : ∀ (j : Fin 384), ((cfg1.win 8).blk t).view.emb (ix1 j) = ix1 j := fun j => by
    funext a; apply Fin.ext
    match a with
    | ⟨0, _⟩ => show win1_8.index t (0 : Fin 1) * 384 + 1 * j.val = j.val; omega
  show _ = outOf (V c main_v15) (V c main_v5_0) (V c main_v5_1) (V c main_arg1) (V c main_arg2) (V c main_v16) (V c main_v17)
            (V c main_arg5) (V c main_arg6) (((cfg1.win 9).blk t).view.emb (ix2 p q))
  rw [hE]
  refine out_congr ?_ ?_ ?_ ?_ ?_ ?_ ?_ ?_ ?_ rfl
  · exact funext fun k => congrArg (fun i : S100000x128.Idx => (V c main_v15 : S100000x128.Idx → EReal) i) (h0 k)
  · exact funext fun k => congrArg (fun i : S100000x128.Idx => (V c main_v5_0 : S100000x128.Idx → EReal) i) (h1 k)
  · exact congrArg (fun i : S100000x1.Idx => (V c main_v5_1 : S100000x1.Idx → EReal) i) h2
  · exact funext fun k => funext fun c' => congrArg (fun i : S128x128.Idx => (V c main_arg1 : S128x128.Idx → EReal) i) (h3 k c')
  · exact funext fun c' => congrArg (fun i : S128.Idx => (V c main_arg2 : S128.Idx → EReal) i) (h4 c')
  · exact funext fun k => funext fun j => congrArg (fun i : S128x384.Idx => (V c main_v16 : S128x384.Idx → EReal) i) (h5 k j)
  · exact funext fun k => funext fun j => congrArg (fun i : S128x384.Idx => (V c main_v17 : S128x384.Idx → EReal) i) (h6 k j)
  · exact funext fun j => congrArg (fun i : S384.Idx => (V c main_arg5 : S384.Idx → EReal) i) (h7 j)
  · exact funext fun j => congrArg (fun i : S384.Idx => (V c main_arg6 : S384.Idx → EReal) i) (h8 j)

/-! ## The blocks tile the rows -/

/-- An index of the array is in point `t`'s block iff each coordinate is in the block's range on its axis. -/
theorem mem_blk_out (t : Fin cfg1.N) (i : S100000x128.Idx) :
    i ∈ ((cfg1.win 9).blk t).view.set ↔ ∀ a : Fin 2, win1_9.index t a * S4000x128.size a ≤ (i a).val ∧ (i a).val < win1_9.index t a * S4000x128.size a + S4000x128.size a := by
  show i ∈ ((View.whole main_v18).slice (win1_9.rect t)).set ↔ _
  rw [View.set_slice_whole, Rect.mem_set_unit]
  exact Iff.rfl

/-- Every entry of the array is in some point's block: row `r` is in block `r / 4000`. -/
theorem cover_out (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  refine ⟨⟨(i 0).val / 4000, by show (i 0).val / 4000 < 25; omega⟩, flush1_9 _, ?_⟩
  rw [mem_blk_out]
  obtain ⟨e00, e01, e10, e11, e20, e21, e30, e31, e40, e50, e51, e60, e61, e70, e80, e90, e91⟩ :=
    index_facts ⟨(i 0).val / 4000, by show (i 0).val / 4000 < 25; omega⟩
  intro a
  match a with
  | ⟨0, _⟩ =>
    show win1_9.index _ (0 : Fin 2) * 4000 ≤ (i 0).val ∧ (i 0).val < win1_9.index _ (0 : Fin 2) * 4000 + 4000
    rw [e90]; show (i 0).val / 4000 * 4000 ≤ (i 0).val ∧ (i 0).val < (i 0).val / 4000 * 4000 + 4000; omega
  | ⟨1, _⟩ =>
    show win1_9.index _ (1 : Fin 2) * 128 ≤ (i 1).val ∧ (i 1).val < win1_9.index _ (1 : Fin 2) * 128 + 128
    rw [e91]; omega

/-! ## The result array after the region -/

/-- The result array after the region, entry `(r, q)`: the node update of row `r` of the aggregated array, of the
    normalised features and of the normalisation column, with the parameter arrays, at column `q`. -/
theorem final1_9 (c : Dev nD) (r : Fin 100000) (q : Fin 128) :
    (dat1 (F := Ideal) V c).arrAt 9 cfg1.N (ix2 r q)
      = Cert.GruSpec.out (fun k => (V c main_v15 : S100000x128.Idx → EReal) (ix2 r k)) (fun k => (V c main_v5_0 : S100000x128.Idx → EReal) (ix2 r k))
          ((V c main_v5_1 : S100000x1.Idx → EReal) (ix2 r (0 : Fin 1)))
          (fun k c' => (V c main_arg1 : S128x128.Idx → EReal) (ix2 k c')) (fun c' => (V c main_arg2 : S128.Idx → EReal) (ix1 c'))
          (fun k j => (V c main_v16 : S128x384.Idx → EReal) (ix2 k j)) (fun k j => (V c main_v17 : S128x384.Idx → EReal) (ix2 k j))
          (fun j => (V c main_arg5 : S384.Idx → EReal) (ix1 j)) (fun j => (V c main_arg6 : S384.Idx → EReal) (ix1 j)) q :=
  congrFun ((dat1 (F := Ideal) V c).arrAt_eq_of_cover 9
    (outOf (V c main_v15) (V c main_v5_0) (V c main_v5_1) (V c main_arg1) (V c main_arg2) (V c main_v16) (V c main_v17)
      (V c main_arg5) (V c main_arg6))
    (fun t _ => flushed_out V c t) cover_out) (ix2 r q)

end Cert.KernelIdeal.Blocks1

end
-- ==== Proof.Join.lean ====
/-
  The idealized kernel's result array is the reference's result stage of the same arguments.

  Row by row. The degree normalisation: the kernel takes the reciprocal square root of the in-degree clipped from below at
  one, the reference the power −1/2 of the same clipped in-degree; at or above one the two agree. Hence the normalised
  features agree entry by entry, hence — the gather and the scatter-add being the same functions on both sides — the
  aggregated arrays agree; the transposed recurrent weights are the same transposes. Finally each side's output at (r, q) is
  the gated cell of GruSpec at row r of those arrays: on the kernel's side through the second region's output blocks, on
  the reference's through its stages read at an entry.
-/
import proofs.«153496_j30734785970522_1_alg».proof.Proof.Stages
import proofs.«153496_j30734785970522_1_alg».proof.Proof.LibRsqrtPow
import proofs.«153496_j30734785970522_1_alg».proof.Proof.RefRow
import proofs.«153496_j30734785970522_1_alg».proof.Proof.KRun
import proofs.«153496_j30734785970522_1_alg».proof.Proof.Blocks0
import proofs.«153496_j30734785970522_1_alg».proof.Proof.Blocks1

set_option maxRecDepth 16384

noncomputable section

namespace Cert.Join

open Idealize.ShloMosaic Idealize.ShloMosaic.ValueIdx Idealize.ShloMosaic.TcCoe Idealize.SL.Sem
open Cert.KernelIdeal Cert.KernelIdeal.Gen Cert.KernelIdeal.HostV
open Cert.ReferenceIdeal.Read (val_main_v3 val_main_v7 val_main_v9 val_main_v19 val_main_v26 val_main_v31 val_main_v63)
open Cert.KernelIdeal.Blocks (final0_2 final0_3)
open Cert.KernelIdeal.Blocks1 (final1_9)

variable (m : (ℓ : Loc nD τ sig) → Buf (Elt Ideal) ℓ) (ρ : Dev nD → PrngReg) (c : Dev nD)

/-- The kernel's normalisation at row r is the reference's. -/
theorem norm_eq (r : Fin 100000) :
    (dat0 (F := Ideal) (V1 m ρ) c).arrAt 3 cfg0.N (ix2 r (0 : Fin 1))
      = val_main_v7 (F := Ideal) (m ((c : Thread nD τ).loc main_arg8)) (ix2 r (0 : Fin 1)) := by
  rw [final0_3 (V1 m ρ) c r, V1_v4 m ρ c, col_apply, Cert.ReferenceIdeal.RefRow.norm_apply, ref_deg]
  exact Cert.LibRsqrtPow.rsqrt_clip_eq_pow _

/-- The kernel's normalised features are the reference's, as whole arrays. -/
theorem featn_eq :
    (dat0 (F := Ideal) (V1 m ρ) c).arrAt 2 cfg0.N
      = val_main_v9 (F := Ideal) (m ((c : Thread nD τ).loc main_arg0)) (m ((c : Thread nD τ).loc main_arg8)) := by
  funext i
  obtain ⟨r, k, rfl⟩ : ∃ (r : Fin 100000) (k : Fin 128), i = ix2 r k := ⟨i 0, i 1, eq_ix2 i⟩
  rw [final0_2 (V1 m ρ) c r k, Cert.ReferenceIdeal.RefRow.featn_apply, ← norm_eq m ρ c r, final0_3 (V1 m ρ) c r, V1_arg0 m ρ c]
  rfl

/-- The kernel's result array is the reference's result stage. -/
theorem result_eq :
    (dat1 (F := Ideal) (V3 m ρ) c).arrAt 9 cfg1.N
      = val_main_v63 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  funext i
  obtain ⟨r, q, rfl⟩ : ∃ (r : Fin 100000) (q : Fin 128), i = ix2 r q := ⟨i 0, i 1, eq_ix2 i⟩
  rw [final1_9 (V3 m ρ) c r q, Cert.ReferenceIdeal.RefRow.ref_apply]
  rw [V3_v15 m ρ c, V3_v5_0 m ρ c, V3_v5_1 m ρ c, V3_arg1 m ρ c, V3_arg2 m ρ c, V3_v16 m ρ c, V3_v17 m ρ c, V3_arg5 m ρ c,
    V3_arg6 m ρ c, norm_eq m ρ c r, featn_eq m ρ c, ref_agg, ref_wihT, ref_whhT]

end Cert.Join

end
-- ==== Proof.lean ====
/-
  A graph convolution followed by a gated recurrent cell, over 100000 nodes of 128 features: the tiled kernel against the
  whole-array reference, on the extended reals.

  The kernel counts in-degrees on the host, normalises the features in a first tiled region (each row scaled by the
  reciprocal square root of its in-degree clipped at one), aggregates the normalised rows along the edges on the host
  (a gather and a scatter-add), and in a second tiled region computes, row by row, the hidden row (the dense transform of
  the aggregated row, scaled by the normalisation, plus a bias) and the gated cell of the node's own row and that hidden
  row. The reference computes the same with whole-array operations, the normalisation as a power −1/2.

  At the ideal values the two results are equal entry by entry: the degree normalisations agree because at or above one the
  reciprocal square root is the power −1/2; hence the normalised features and the aggregated arrays agree; and each side's
  output at a row is the same gated cell of that row's data — on the kernel's side read through the blocks that tile the
  rows, on the reference's through its operations read at an entry. No law used needs finite entries, so the precondition
  is never opened. The idealization rewrote nothing, so there is nothing to preserve; the three frames are the generated
  frame certificates and the reference's generated run.
-/
import proofs.«153496_j30734785970522_1_alg».proof.Defs
import proofs.«153496_j30734785970522_1_alg».proof.Proof.Gen.Kernel
import proofs.«153496_j30734785970522_1_alg».proof.Proof.Gen.Kernel.Skeleton
import proofs.«153496_j30734785970522_1_alg».proof.Proof.Gen.Kernel.Launch
import proofs.«153496_j30734785970522_1_alg».proof.Proof.Gen.Kernel.Points
import proofs.«153496_j30734785970522_1_alg».proof.Proof.Gen.Kernel.Frame
import proofs.«153496_j30734785970522_1_alg».proof.Proof.Gen.KernelIdeal
import proofs.«153496_j30734785970522_1_alg».proof.Proof.Gen.KernelIdeal.Skeleton
import proofs.«153496_j30734785970522_1_alg».proof.Proof.Gen.KernelIdeal.Launch
import proofs.«153496_j30734785970522_1_alg».proof.Proof.Gen.KernelIdeal.Points
import proofs.«153496_j30734785970522_1_alg».proof.Proof.Gen.KernelIdeal.Frame
import proofs.«153496_j30734785970522_1_alg».proof.Proof.Gen.ReferenceIdeal
import proofs.«153496_j30734785970522_1_alg».proof.Proof.Gen.Pre_finite_inputs
import proofs.«153496_j30734785970522_1_alg».proof.Proof.Gen.ReferenceIdeal.Run
import proofs.«153496_j30734785970522_1_alg».proof.Proof.Gen.ReferenceIdeal.Read
import proofs.«153496_j30734785970522_1_alg».proof.Proof.KRun
import proofs.«153496_j30734785970522_1_alg».proof.Proof.Join
import Idealize.ShloMosaic.Adequacy
import Idealize.ShloMosaic.Init

noncomputable section

namespace Cert.Proof

open Idealize.ShloMosaic Idealize.SL.Sem

/-- The word-level kernel runs and leaves its arguments as launched: the generated frame certificate. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as launched: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs run and end with the same result array: the kernel's is the
    array its second region's output blocks leave, the reference's its last stage, and the two are one function of the
    arguments. -/
theorem algebraic : Cert.algebraic_KernelIdeal_ReferenceIdeal := by
  intro m ρ m' ρ' _ hagree
  refine ⟨_, Cert.KernelIdeal.RunV.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2, Cert.KernelIdeal.RunV.result_arr m ρ c]
  exact (Cert.Join.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
